-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x64 : Shape := ⟨3, ![32, 2048, 64]⟩
abbrev S_ : Shape := ⟨0, ![]⟩

class Facts : Prop where
  bcast_S_S32x2048x64 : S_.BroadcastsInDim S32x2048x64 (![] : Fin 0 → Fin S32x2048x64.rank)
  reducesTo_S32x2048x64_S_d0_1_2 : S32x2048x64.ReducesTo [0, 1, 2] S_
  h_S_ : 0 < S_.numel

variable [Facts]

def fn {F : FTy → Type} [FloatOps F] (main_arg0 : FVec F S32x2048x64 .f32) (main_arg1 : FVec F S32x2048x64 .f32) (main_arg2 : FVec F S32x2048x64 .f32) : IVec S_ 1 :=
  let main_v0 : FVec F S32x2048x64 .f32 := Host.absf main_arg0
  let main_cst : FVec F S_ .f32 := constant S_ .f32 0x7F800000#32
  let main_v1 : FVec F S32x2048x64 .f32 := broadcastInDim S32x2048x64 ![] bcast_S_S32x2048x64 main_cst
  let main_v2 : IVec S32x2048x64 1 := cmpf .olt main_v0 main_v1
  let main_c : IVec S_ 1 := constantI S_ 1 1#1
  let main_v3 : IVec S_ 1 := (fun x v => Host.reduce IntOp.andi x v reducesTo_S32x2048x64_S_d0_1_2 h_S_) main_v2 main_c
  let main_v4 : FVec F S32x2048x64 .f32 := Host.absf main_arg1
  let main_cst_0 : FVec F S_ .f32 := constant S_ .f32 0x7F800000#32
  let main_v5 : FVec F S32x2048x64 .f32 := broadcastInDim S32x2048x64 ![] bcast_S_S32x2048x64 main_cst_0
  let main_v6 : IVec S32x2048x64 1 := cmpf .olt main_v4 main_v5
  let main_c_1 : IVec S_ 1 := constantI S_ 1 1#1
  let main_v7 : IVec S_ 1 := (fun x v => Host.reduce IntOp.andi x v reducesTo_S32x2048x64_S_d0_1_2 h_S_) main_v6 main_c_1
  let main_v8 : IVec S_ 1 := andi main_v3 main_v7
  let main_v9 : FVec F S32x2048x64 .f32 := Host.absf main_arg2
  let main_cst_2 : FVec F S_ .f32 := constant S_ .f32 0x7F800000#32
  let main_v10 : FVec F S32x2048x64 .f32 := broadcastInDim S32x2048x64 ![] bcast_S_S32x2048x64 main_cst_2
  let main_v11 : IVec S32x2048x64 1 := cmpf .olt main_v9 main_v10
  let main_c_3 : IVec S_ 1 := constantI S_ 1 1#1
  let main_v12 : IVec S_ 1 := (fun x v => Host.reduce IntOp.andi x v reducesTo_S32x2048x64_S_d0_1_2 h_S_) main_v11 main_c_3
  let main_v13 : IVec S_ 1 := andi main_v8 main_v12
  main_v13
-- ==== Kernel.lean ====
abbrev S32x2048x64 : Shape := ⟨3, ![32, 2048, 64]⟩
abbrev S32x2048x2048 : Shape := ⟨3, ![32, 2048, 2048]⟩
abbrev S1x1024x64 : Shape := ⟨3, ![1, 1024, 64]⟩
abbrev S1x2048x64 : Shape := ⟨3, ![1, 2048, 64]⟩
abbrev S1x1024x2048 : Shape := ⟨3, ![1, 1024, 2048]⟩
abbrev S1024x64 : Shape := ⟨2, ![1024, 64]⟩
abbrev S2048x64 : Shape := ⟨2, ![2048, 64]⟩
abbrev S1024x2048 : Shape := ⟨2, ![1024, 2048]⟩

abbrev nBuf : Space → Nat
  | .hbm => 5
  | .vmem => 10
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048x64, .f32⟩
  | .hbm, ⟨4, _⟩ => ⟨S32x2048x2048, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1024x64, .f32⟩
  | .local _ .vmem, ⟨7, _⟩ => ⟨S1x1024x64, .f32⟩
  | .local _ .vmem, ⟨8, _⟩ => ⟨S1x1024x2048, .f32⟩
  | .local _ .vmem, ⟨9, _⟩ => ⟨S1x1024x2048, .f32⟩
  | _, _ => ⟨S32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  shapeCasts_S1024x64_S1x1024x64 : S1024x64.ShapeCasts S1x1024x64
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S32x2048x64.size a
  hwx0_0 : ∀ i : grid0.Coords, EltTy.bits .f32 = 32 ∨ (Rect.block (s := S32x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S32x2048x64.size a
  hwx0_3 : ∀ i : grid0.Coords, EltTy.bits .f32 = 32 ∨ (Rect.block (s := S32x2048x64) S1x1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x2048.size a ≤ S32x2048x2048.size a
  hwx0_4 : ∀ i : grid0.Coords, EltTy.bits .f32 = 32 ∨ (Rect.block (s := S32x2048x2048) S1x1024x2048.size (cc0_transform_4 i) (hinb0_4 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1024x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x2048x64 : Shape := ⟨3, ![32, 2048, 64]⟩
abbrev S_ : Shape := ⟨0, ![]⟩
abbrev S32x2048x2048 : Shape := ⟨3, ![32, 2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S_, .f32⟩
  | .hbm, ⟨4, _⟩ => ⟨S_, .f32⟩
  | .hbm, ⟨5, _⟩ => ⟨S32x2048x2048, .f32⟩
  | .hbm, ⟨6, _⟩ => ⟨S32x2048x2048, .f32⟩
  | .hbm, ⟨7, _⟩ => ⟨S32x2048x2048, .f32⟩
  | .hbm, ⟨8, _⟩ => ⟨S32x2048x64, .f32⟩
  | _, _ => ⟨S32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S_S32x2048x2048 : S_.BroadcastsInDim S32x2048x2048 (![] : Fin 0 → Fin S32x2048x2048.rank)
  dot_S32x2048x64_S32x2048x64_S32x2048x2048_2_2_1_1_0_0_wf : DotDims.WF S32x2048x64 S32x2048x64 S32x2048x2048 [2] [2] [1] [1] [0] [0]
  dot_S32x2048x2048_S32x2048x64_S32x2048x64_2_1_1_2_0_0_wf : DotDims.WF S32x2048x2048 S32x2048x64 S32x2048x64 [2] [1] [1] [2] [0] [0]

variable [Facts₀]

def dot_S32x2048x64_S32x2048x64_S32x2048x2048_2_2_1_1_0_0 : DotDims S32x2048x64 S32x2048x64 S32x2048x2048 where
  lhsContracting := [2]
  rhsContracting := [2]
  lhsNonContracting := [1]
  rhsNonContracting := [1]
  lhsBatch := [0]
  rhsBatch := [0]
  wf := dot_S32x2048x64_S32x2048x64_S32x2048x2048_2_2_1_1_0_0_wf
def dot_S32x2048x2048_S32x2048x64_S32x2048x64_2_1_1_2_0_0 : DotDims S32x2048x2048 S32x2048x64 S32x2048x64 where
  lhsContracting := [2]
  rhsContracting := [1]
  lhsNonContracting := [1]
  rhsNonContracting := [2]
  lhsBatch := [0]
  rhsBatch := [0]
  wf := dot_S32x2048x2048_S32x2048x64_S32x2048x64_2_1_1_2_0_0_wf

class Facts : Prop extends Facts₀ where

variable [Facts]
-- ==== Proof.AttnSpec.lean ====
/-
  Scaled dot-product attention without softmax, over the extended reals, as two whole-array functions of the
  argument arrays q, k, v : [32, 2048, 64]:

    scores q k (b, i, j) = (∑ d, q (b, i, d) · k (b, j, d)) · (1/8)          -- [32, 2048, 2048]
    attend q k v (b, i, e) = ∑ j, scores q k (b, i, j) · v (b, j, e)          -- [32, 2048, 64]

  One side scales every entry of q by 1/8 before the contraction, the other divides the contracted sum by √64 = 8.
  The law that joins them: multiplication by a nonnegative REAL constant distributes over every sum of extended reals
  (infinite terms included), so the factor 1/8 may be taken out of the sum over d with no finiteness assumption.
-/
import Idealize.ShloMosaic.PureOps.Ideal
import Idealize.ShloMosaic.PureOps.Ideal.Laws
import Idealize.ShloMosaic.Lib.ValueIdx

noncomputable section

open scoped BigOperators

namespace Cert.Attn

open Idealize.ShloMosaic Idealize.ShloMosaic.ValueIdx

/-- The shape of q, k, v and of the attended output. -/
abbrev QKV : Shape := ⟨3, ![32, 2048, 64]⟩
/-- The shape of the score array. -/
abbrev SC : Shape := ⟨3, ![32, 2048, 2048]⟩

/-- The scaled scores: row i of q against row j of k within batch b, times 1/8. -/
def scores (q k : QKV.Idx → EReal) : SC.Idx → EReal := fun i =>
  (∑ d : Fin 64, q (ix3 (i 0) (i 1) d) * k (ix3 (i 0) (i 2) d)) * ((1 / 8 : ℝ) : EReal)

/-- The attended output: row i of the scores against column e of v within batch b. -/
def attend (q k v : QKV.Idx → EReal) : QKV.Idx → EReal := fun i =>
  ∑ j : Fin 2048, scores q k (ix3 (i 0) (i 1) j) * v (ix3 (i 0) j (i 2))

/-! ## The constants' values -/

/-- The f32 pattern of `0.125` denotes the real 1/8. -/
theorem ofBits_eighth : Ideal.ofBits .f32 0x3E000000#32 = ((1 / 8 : ℝ) : EReal) := by
  simp [Ideal.ofBits, Ideal.ieee, -EReal.coe_mul]; norm_num

/-- The f32 pattern of `64.0` denotes the real 64. -/
theorem ofBits_64 : Ideal.ofBits .f32 0x42800000#32 = ((64 : ℝ) : EReal) := by
  simp [Ideal.ofBits, Ideal.ieee, -EReal.coe_mul]; norm_num

/-- The square root of 64 is 8. -/
theorem sqrt_64 : Ideal.sqrt ((64 : ℝ) : EReal) = ((8 : ℝ) : EReal) := by
  rw [Ideal.sqrt_coe, if_neg (by norm_num)]
  congr 1
  rw [show (64 : ℝ) = 8 ^ 2 by norm_num]
  exact Real.sqrt_sq (by norm_num)

/-- Dividing by √64 is multiplying by 1/8, on every extended real. -/
theorem div_sqrt_64 (x : EReal) :
    Ideal.div x (Ideal.sqrt (Ideal.ofBits .f32 0x42800000#32)) = x * ((1 / 8 : ℝ) : EReal) := by
  rw [ofBits_64, sqrt_64, Ideal.div_coe (by norm_num : (8 : ℝ) ≠ 0)]

/-! ## The law: a nonnegative real factor leaves a sum of extended reals -/

/-- A nonnegative real factor distributes over any finite sum of extended reals. -/
theorem sum_mul_coe {ι : Type*} (s : Finset ι) (h : ι → EReal) (c : ℝ) (hc : 0 ≤ c) :
    ∑ d ∈ s, h d * (c : EReal) = (∑ d ∈ s, h d) * (c : EReal) := by
  classical
  induction s using Finset.induction_on with
  | empty => simp
  | insert a s ha ih =>
    rw [Finset.sum_insert ha, Finset.sum_insert ha, ih,
      EReal.right_distrib_of_nonneg_of_ne_top (EReal.coe_nonneg.mpr hc) (EReal.coe_ne_top c)]

/-- Scaling the left factors by 1/8 before contracting is scaling the contracted sum. -/
theorem scaled_contraction {n : Nat} (f g : Fin n → EReal) :
    ∑ d : Fin n, (f d * ((1 / 8 : ℝ) : EReal)) * g d = (∑ d : Fin n, f d * g d) * ((1 / 8 : ℝ) : EReal) := by
  rw [← sum_mul_coe Finset.univ (fun d => f d * g d) (1 / 8) (by norm_num)]
  exact Finset.sum_congr rfl fun d _ => mul_right_comm _ _ _

end Cert.Attn

end
-- ==== Proof.BodyValue.lean ====
/-
  What the kernel body computes from one point's blocks, index by index at the ideal values. From the q block
  P0 : [1, 1024, 64] and the k block P1 : [1, 2048, 64] the first matrix product leaves, at (r, c),
      ∑ d, (P0 (0, r, d) · 1/8) · P1 (0, c, d)
  (every format change is the identity on extended reals, and the zero accumulator adds nothing); the second
  contracts that [1024, 2048] array with the v block P2 : [1, 2048, 64] over the key axis:
      ∑ j, (first product at (r, j)) · P2 (0, j, e).
-/
import proofs.«157425_j57827439674168_2_alg».proof.Proof.Gen.KernelIdeal.Skeleton
import proofs.«157425_j57827439674168_2_alg».proof.Proof.AttnSpec
import Idealize.ShloMosaic.Lib.Pipeline.Value
import Idealize.ShloMosaic.Lib.ValueLayout

noncomputable section

open scoped BigOperators

namespace Cert.Attn.Body

open Cert.KernelIdeal Cert.KernelIdeal.Gen
open Idealize.ShloMosaic Idealize.ShloMosaic.ValueIdx Cert.Attn

/-! ## The operand indices of the two matrix products

The first product contracts axis 1 of both operands (rows of the q block against rows of the k block); the second
contracts axis 1 of the left operand with axis 0 of the right (rows of the scores against columns of the v block). -/

theorem dot1_lhs0 (j : S1024x2048.Idx) (q : dot_S1024x64_S2048x64_S1024x2048_1_1_0_0_n_n.contr.Idx) : (dot_S1024x64_S2048x64_S1024x2048_1_1_0_0_n_n.lhsIdx j q 0).val = (j 0).val := by
  unfold DotDims.lhsIdx
  rw [dif_neg (show ¬(0 : Fin S1024x64.rank) ∈ dot_S1024x64_S2048x64_S1024x2048_1_1_0_0_n_n.lhsBatch by decide), dif_pos (show (0 : Fin S1024x64.rank) ∈ dot_S1024x64_S2048x64_S1024x2048_1_1_0_0_n_n.lhsNonContracting by decide)]
  rfl
theorem dot1_rhs0 (j : S1024x2048.Idx) (q : dot_S1024x64_S2048x64_S1024x2048_1_1_0_0_n_n.contr.Idx) : (dot_S1024x64_S2048x64_S1024x2048_1_1_0_0_n_n.rhsIdx j q 0).val = (j 1).val := by
  unfold DotDims.rhsIdx
  rw [dif_neg (show ¬(0 : Fin S2048x64.rank) ∈ dot_S1024x64_S2048x64_S1024x2048_1_1_0_0_n_n.rhsBatch by decide), dif_pos (show (0 : Fin S2048x64.rank) ∈ dot_S1024x64_S2048x64_S1024x2048_1_1_0_0_n_n.rhsNonContracting by decide)]
  rfl
theorem dot2_lhs0 (j : S1024x64.Idx) (q : dot_S1024x2048_S2048x64_S1024x64_1_0_0_1_n_n.contr.Idx) : (dot_S1024x2048_S2048x64_S1024x64_1_0_0_1_n_n.lhsIdx j q 0).val = (j 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem dot2_rhs1 (j : S1024x64.Idx) (q : dot_S1024x2048_S2048x64_S1024x64_1_0_0_1_n_n.contr.Idx) : (dot_S1024x2048_S2048x64_S1024x64_1_0_0_1_n_n.rhsIdx j q 1).val = (j 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- At output (r, c) and contraction position d the first product reads its left operand at (r, d) … -/
theorem dot1_lhs (r : Fin 1024) (c : Fin 2048) (q : dot_S1024x64_S2048x64_S1024x2048_1_1_0_0_n_n.contr.Idx) (d : Fin 64) (hq : (q ⟨0, by decide⟩).val = d.val) :
    dot_S1024x64_S2048x64_S1024x2048_1_1_0_0_n_n.lhsIdx (ix2 r c) q = ix2 r d :=
  funext fun a => Fin.ext (by
    match a with
    | ⟨0, _⟩ => exact dot1_lhs0 _ _
    | ⟨1, _⟩ => exact (dot_S1024x64_S2048x64_S1024x2048_1_1_0_0_n_n.lhsIdx_val_of_single rfl _ q).trans hq)
/-- … and its right operand at (c, d). -/
theorem dot1_rhs (r : Fin 1024) (c : Fin 2048) (q : dot_S1024x64_S2048x64_S1024x2048_1_1_0_0_n_n.contr.Idx) (d : Fin 64) (hq : (q ⟨0, by decide⟩).val = d.val) :
    dot_S1024x64_S2048x64_S1024x2048_1_1_0_0_n_n.rhsIdx (ix2 r c) q = ix2 c d :=
  funext fun a => Fin.ext (by
    match a with
    | ⟨0, _⟩ => exact dot1_rhs0 _ _
    | ⟨1, _⟩ => exact (dot_S1024x64_S2048x64_S1024x2048_1_1_0_0_n_n.rhsIdx_val_of_single rfl _ q).trans hq)
/-- At output (r, e) and contraction position n the second product reads its left operand at (r, n) … -/
theorem dot2_lhs (r : Fin 1024) (e : Fin 64) (q : dot_S1024x2048_S2048x64_S1024x64_1_0_0_1_n_n.contr.Idx) (n : Fin 2048) (hq : (q ⟨0, by decide⟩).val = n.val) :
    dot_S1024x2048_S2048x64_S1024x64_1_0_0_1_n_n.lhsIdx (ix2 r e) q = ix2 r n :=
  funext fun a => Fin.ext (by
    match a with
    | ⟨0, _⟩ => exact dot2_lhs0 _ _
    | ⟨1, _⟩ => exact (dot_S1024x2048_S2048x64_S1024x64_1_0_0_1_n_n.lhsIdx_val_of_single rfl _ q).trans hq)
/-- … and its right operand at (n, e). -/
theorem dot2_rhs (r : Fin 1024) (e : Fin 64) (q : dot_S1024x2048_S2048x64_S1024x64_1_0_0_1_n_n.contr.Idx) (n : Fin 2048) (hq : (q ⟨0, by decide⟩).val = n.val) :
    dot_S1024x2048_S2048x64_S1024x64_1_0_0_1_n_n.rhsIdx (ix2 r e) q = ix2 n e :=
  funext fun a => Fin.ext (by
    match a with
    | ⟨0, _⟩ => exact (dot_S1024x2048_S2048x64_S1024x64_1_0_0_1_n_n.rhsIdx_val_of_single rfl _ q).trans hq
    | ⟨1, _⟩ => exact dot2_rhs1 _ _)

/-! ## The two products at an index -/

/-- The first product at (r, c): row r of the q block, each entry scaled by 1/8, against row c of the k block. -/
theorem scoreTile_apply (P0 : Vec Ideal S1x1024x64 .f32) (P1 : Vec Ideal S1x2048x64 .f32) (r : Fin 1024) (c : Fin 2048) :
    k0_pay1 (F := Ideal) P0 P1 (ix2 r c)
      = ∑ d : Fin 64, (P0 (ix3 (0 : Fin 1) r d) * ((1 / 8 : ℝ) : EReal)) * P1 (ix3 (0 : Fin 1) c d) := by
  unfold k0_pay1
  simp only [matmul]
  rw [Ideal.matmul_constant_zero_apply, ← Equiv.sum_comp (contrEquiv1 dot_S1024x64_S2048x64_S1024x2048_1_1_0_0_n_n 64 rfl rfl).symm]
  refine Finset.sum_congr rfl fun d _ => ?_
  have hk := contrEquiv1_symm_val dot_S1024x64_S2048x64_S1024x2048_1_1_0_0_n_n 64 rfl rfl d
  rw [dot1_lhs r c _ d hk, dot1_rhs r c _ d hk]
  show (shapeCast S1024x64 P0 shapeCasts_S1x1024x64_S1024x64 (ix2 r d) * Ideal.ofBits .f32 0x3E000000#32)
      * shapeCast S2048x64 P1 shapeCasts_S1x2048x64_S2048x64 (ix2 c d) = _
  rw [shapeCast_1ab_ab_apply, shapeCast_1ab_ab_apply, ofBits_eighth]

/-- The stored score block at (u, r, c) is the first product at (r, c). -/
theorem scoreStore_apply (P0 : Vec Ideal S1x1024x64 .f32) (P1 : Vec Ideal S1x2048x64 .f32) (u : Fin 1) (r : Fin 1024) (c : Fin 2048) :
    k0_pay2 (F := Ideal) P0 P1 (ix3 u r c) = k0_pay1 (F := Ideal) P0 P1 (ix2 r c) := by
  unfold k0_pay2
  exact shapeCast_ab_1ab_apply _ _ u r c

/-- The stored output block at (u, r, e): the first product's row r against column e of the v block. -/
theorem outStore_apply (P0 : Vec Ideal S1x1024x64 .f32) (P1 P2 : Vec Ideal S1x2048x64 .f32) (u : Fin 1) (r : Fin 1024) (e : Fin 64) :
    k0_pay3 (F := Ideal) P0 P1 P2 (ix3 u r e)
      = ∑ n : Fin 2048, k0_pay1 (F := Ideal) P0 P1 (ix2 r n) * P2 (ix3 (0 : Fin 1) n e) := by
  unfold k0_pay3
  simp only [matmul]
  rw [shapeCast_ab_1ab_apply, Ideal.matmul_constant_zero_apply, ← Equiv.sum_comp (contrEquiv1 dot_S1024x2048_S2048x64_S1024x64_1_0_0_1_n_n 2048 rfl rfl).symm]
  refine Finset.sum_congr rfl fun n _ => ?_
  have hk := contrEquiv1_symm_val dot_S1024x2048_S2048x64_S1024x64_1_0_0_1_n_n 2048 rfl rfl n
  rw [dot2_lhs r e _ n hk, dot2_rhs r e _ n hk]
  show k0_pay1 (F := Ideal) P0 P1 (ix2 r n) * shapeCast S2048x64 P2 shapeCasts_S1x2048x64_S2048x64 (ix2 n e) = _
  rw [shapeCast_1ab_ab_apply]

end Cert.Attn.Body

end
-- ==== Proof.KernelValue.lean ====
/-
  From one point's blocks to the whole arrays. The grid is 32 × 2: point (b, h) takes rows 1024·h … 1024·h + 1023 of
  q in batch b and all of k and v in batch b, and writes back the same rows of the output and of the score array. So
  entry (b, i, ·) of either result depends only on row i of q and on batch b of k and v, each read through the point's
  blocks exactly where the whole-array functions `Attn.scores` and `Attn.attend` read them; the 64 blocks tile both
  result arrays, so after the run each array IS its function of the arguments.
-/
import proofs.«157425_j57827439674168_2_alg».proof.Proof.Gen.KernelIdeal.Value
import proofs.«157425_j57827439674168_2_alg».proof.Proof.BodyValue

noncomputable section

open scoped BigOperators

namespace Cert.Attn.Kernel

open Cert.KernelIdeal Cert.KernelIdeal.Gen Cert.KernelIdeal.Value
open Idealize.ShloMosaic Idealize.ShloMosaic.TcCoe Idealize.SL.Sem Idealize.ShloMosaic.ValueIdx Cert.Attn Cert.Attn.Body
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl

/-! ## The body's results from blocks that are pieces of the arrays -/

/-- The stored score block at y is the scores at array index i, once row (y 1) of the q block is row (i 1) of q in
    batch (i 0) and row (y 2) of the k block is row (i 2) of k in that batch. -/
theorem scoreBlock_eq (P0 : Vec Ideal S1x1024x64 .f32) (P1 : Vec Ideal S1x2048x64 .f32) (q k : QKV.Idx → EReal)
    (y : S1x1024x2048.Idx) (i : SC.Idx)
    (hq : ∀ d : Fin 64, P0 (ix3 (0 : Fin 1) (y 1) d) = q (ix3 (i 0) (i 1) d))
    (hk : ∀ d : Fin 64, P1 (ix3 (0 : Fin 1) (y 2) d) = k (ix3 (i 0) (i 2) d)) :
    k0_pay2 (F := Ideal) P0 P1 y = scores q k i := by
  obtain ⟨u, r, c, rfl⟩ : ∃ (u : Fin 1) (r : Fin 1024) (c : Fin 2048), y = ix3 u r c := ⟨y 0, y 1, y 2, eq_ix3 y⟩
  rw [scoreStore_apply, scoreTile_apply]
  unfold scores
  rw [← scaled_contraction]
  exact Finset.sum_congr rfl fun d _ => by rw [hq d, hk d]

/-- The stored output block at y is the attended output at array index i, once row (y 1) of the q block is row (i 1)
    of q in batch (i 0), the k block is batch (i 0) of k, and column (y 2) of the v block is column (i 2) of v there. -/
theorem outBlock_eq (P0 : Vec Ideal S1x1024x64 .f32) (P1 P2 : Vec Ideal S1x2048x64 .f32) (q k v : QKV.Idx → EReal)
    (y : S1x1024x64.Idx) (i : QKV.Idx)
    (hq : ∀ d : Fin 64, P0 (ix3 (0 : Fin 1) (y 1) d) = q (ix3 (i 0) (i 1) d))
    (hk : ∀ (n : Fin 2048) (d : Fin 64), P1 (ix3 (0 : Fin 1) n d) = k (ix3 (i 0) n d))
    (hv : ∀ n : Fin 2048, P2 (ix3 (0 : Fin 1) n (y 2)) = v (ix3 (i 0) n (i 2))) :
    k0_pay3 (F := Ideal) P0 P1 P2 y = attend q k v i := by
  obtain ⟨u, r, e, rfl⟩ : ∃ (u : Fin 1) (r : Fin 1024) (e : Fin 64), y = ix3 u r e := ⟨y 0, y 1, y 2, eq_ix3 y⟩
  rw [outStore_apply]
  unfold attend
  refine Finset.sum_congr rfl fun n _ => ?_
  rw [hv n, scoreTile_apply]
  unfold scores
  rw [← scaled_contraction]
  exact congrArg (· * v (ix3 (i 0) n (i 2))) (Finset.sum_congr rfl fun d _ => by rw [hq d, hk n d])

/-! ## The index maps, decided over the 64 grid points -/

/-- The q block and both result blocks move together (batch, row block); the k and v blocks follow the batch only;
    no block moves along the last axis. -/
theorem idx_facts : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = win0_4.index t (1 : Fin 3) ∧ win0_3.index t (2 : Fin 3) = 0
    ∧ win0_4.index t (2 : Fin 3) = 0 :=
  (by decide +kernel : ∀ t : Fin grid0.N, _)

/-- Every (batch, row block) pair is some point's. -/
theorem idx_onto : ∀ (b : Fin 32) (h : Fin 2), ∃ t : Fin cfg0.N, win0_4.index t = ![b.val, h.val, 0] :=
  (by decide +kernel : ∀ (b : Fin 32) (h : Fin 2), ∃ t : Fin grid0.N, win0_4.index t = ![b.val, h.val, 0])

/-! ## The input blocks as pieces of the argument arrays -/

/-- An entry of the q block is the entry of q at the block's offset. -/
theorem qblk_apply (c : Dev nD) (t : Fin cfg0.N) (x : S1x1024x64.Idx) (i : S32x2048x64.Idx)
    (h0 : win0_0.index t (0 : Fin 3) * 1 + 1 * (x 0).val = (i 0).val)
    (h1 : win0_0.index t (1 : Fin 3) * 1024 + 1 * (x 1).val = (i 1).val)
    (h2 : win0_0.index t (2 : Fin 3) * 64 + 1 * (x 2).val = (i 2).val) :
    (iblk m c 0 t : Vec Ideal S1x1024x64 .f32) x = V m c main_arg0 i := by
  unfold iblk
  rw [View.read_apply]
  show V m c main_arg0 _ = V m c main_arg0 _
  congr 1
  funext a
  apply Fin.ext
  match a with
  | ⟨0, _⟩ => exact h0
  | ⟨1, _⟩ => exact h1
  | ⟨2, _⟩ => exact h2

/-- An entry of the k block is the entry of k at the block's offset. -/
theorem kblk_apply (c : Dev nD) (t : Fin cfg0.N) (x : S1x2048x64.Idx) (i : S32x2048x64.Idx)
    (h0 : win0_1.index t (0 : Fin 3) * 1 + 1 * (x 0).val = (i 0).val)
    (h1 : win0_1.index t (1 : Fin 3) * 2048 + 1 * (x 1).val = (i 1).val)
    (h2 : win0_1.index t (2 : Fin 3) * 64 + 1 * (x 2).val = (i 2).val) :
    (iblk m c 1 t : Vec Ideal S1x2048x64 .f32) x = V m c main_arg1 i := by
  unfold iblk
  rw [View.read_apply]
  show V m c main_arg1 _ = V m c main_arg1 _
  congr 1
  funext a
  apply Fin.ext
  match a with
  | ⟨0, _⟩ => exact h0
  | ⟨1, _⟩ => exact h1
  | ⟨2, _⟩ => exact h2

/-- An entry of the v block is the entry of v at the block's offset. -/
theorem vblk_apply (c : Dev nD) (t : Fin cfg0.N) (x : S1x2048x64.Idx) (i : S32x2048x64.Idx)
    (h0 : win0_2.index t (0 : Fin 3) * 1 + 1 * (x 0).val = (i 0).val)
    (h1 : win0_2.index t (1 : Fin 3) * 2048 + 1 * (x 1).val = (i 1).val)
    (h2 : win0_2.index t (2 : Fin 3) * 64 + 1 * (x 2).val = (i 2).val) :
    (iblk m c 2 t : Vec Ideal S1x2048x64 .f32) x = V m c main_arg2 i := by
  unfold iblk
  rw [View.read_apply]
  show V m c main_arg2 _ = V m c main_arg2 _
  congr 1
  funext a
  apply Fin.ext
  match a with
  | ⟨0, _⟩ => exact h0
  | ⟨1, _⟩ => exact h1
  | ⟨2, _⟩ => exact h2

/-! ## What each point writes back -/

/-- Point t writes back block t of the score array of the arguments. -/
theorem flushed_scores (c : Dev nD) (t : Fin cfg0.N) :
    (dats m 0 c).flushed 4 t = ((cfg0.win 4).blk t).view.read (Elt Ideal) (scores (V m c main_arg0) (V m c main_arg1)) := by
  rw [flushed4]
  unfold out0_4
  rw [View.canon_unit_zero hz3]
  simp only [View.ld_unit_zero (S := S1x1024x64) hz3, View.ld_unit_zero (S := S1x2048x64) hz3]
  obtain ⟨q0, q1, q2, k0, k1, k2, v0, v1, v2, o0, o1, o2, s2⟩ := idx_facts t
  funext y
  show k0_pay2 (F := Ideal) (iblk m c 0 t) (iblk m c 1 t) y
    = scores (V m c main_arg0) (V m c main_arg1) (((cfg0.win 4).blk t).view.emb y)
  have hy0 : (y 0).val < 1 := (y 0).isLt
  refine scoreBlock_eq (iblk m c 0 t) (iblk m c 1 t) (V m c main_arg0) (V m c main_arg1) y (((cfg0.win 4).blk t).view.emb y) (fun d => ?_) (fun d => ?_)
  · refine qblk_apply m c t _ _ ?_ ?_ ?_
    · show win0_0.index t (0 : Fin 3) * 1 + 1 * 0 = win0_4.index t (0 : Fin 3) * 1 + 1 * (y 0).val; omega
    · show win0_0.index t (1 : Fin 3) * 1024 + 1 * (y 1).val = win0_4.index t (1 : Fin 3) * 1024 + 1 * (y 1).val; omega
    · show win0_0.index t (2 : Fin 3) * 64 + 1 * d.val = d.val; omega
  · refine kblk_apply m c t _ _ ?_ ?_ ?_
    · show win0_1.index t (0 : Fin 3) * 1 + 1 * 0 = win0_4.index t (0 : Fin 3) * 1 + 1 * (y 0).val; omega
    · show win0_1.index t (1 : Fin 3) * 2048 + 1 * (y 2).val = win0_4.index t (2 : Fin 3) * 2048 + 1 * (y 2).val; omega
    · show win0_1.index t (2 : Fin 3) * 64 + 1 * d.val = d.val; omega

/-- Point t writes back block t of the attended output of the arguments. -/
theorem flushed_attend (c : Dev nD) (t : Fin cfg0.N) :
    (dats m 0 c).flushed 3 t = ((cfg0.win 3).blk t).view.read (Elt Ideal) (attend (V m c main_arg0) (V m c main_arg1) (V m c main_arg2)) := by
  rw [flushed3]
  unfold out0_3
  rw [View.canon_unit_zero hz3]
  simp only [View.ld_unit_zero (S := S1x1024x64) hz3, View.ld_unit_zero (S := S1x2048x64) hz3]
  obtain ⟨q0, q1, q2, k0, k1, k2, v0, v1, v2, o0, o1, o2, s2⟩ := idx_facts t
  funext y
  show k0_pay3 (F := Ideal) (iblk m c 0 t) (iblk m c 1 t) (iblk m c 2 t) y
    = attend (V m c main_arg0) (V m c main_arg1) (V m c main_arg2) (((cfg0.win 3).blk t).view.emb y)
  have hy0 : (y 0).val < 1 := (y 0).isLt
  refine outBlock_eq (iblk m c 0 t) (iblk m c 1 t) (iblk m c 2 t) (V m c main_arg0) (V m c main_arg1) (V m c main_arg2) y (((cfg0.win 3).blk t).view.emb y) (fun d => ?_) (fun n d => ?_) (fun n => ?_)
  · refine qblk_apply m c t _ _ ?_ ?_ ?_
    · show win0_0.index t (0 : Fin 3) * 1 + 1 * 0 = win0_3.index t (0 : Fin 3) * 1 + 1 * (y 0).val; omega
    · show win0_0.index t (1 : Fin 3) * 1024 + 1 * (y 1).val = win0_3.index t (1 : Fin 3) * 1024 + 1 * (y 1).val; omega
    · show win0_0.index t (2 : Fin 3) * 64 + 1 * d.val = d.val; omega
  · refine kblk_apply m c t _ _ ?_ ?_ ?_
    · show win0_1.index t (0 : Fin 3) * 1 + 1 * 0 = win0_3.index t (0 : Fin 3) * 1 + 1 * (y 0).val; omega
    · show win0_1.index t (1 : Fin 3) * 2048 + 1 * n.val = n.val; omega
    · show win0_1.index t (2 : Fin 3) * 64 + 1 * d.val = d.val; omega
  · refine vblk_apply m c t _ _ ?_ ?_ ?_
    · show win0_2.index t (0 : Fin 3) * 1 + 1 * 0 = win0_3.index t (0 : Fin 3) * 1 + 1 * (y 0).val; omega
    · show win0_2.index t (1 : Fin 3) * 2048 + 1 * n.val = n.val; omega
    · show win0_2.index t (2 : Fin 3) * 64 + 1 * (y 2).val = win0_3.index t (2 : Fin 3) * 64 + 1 * (y 2).val; omega

/-! ## The blocks tile the result arrays -/

/-- An index of the score array is in point t's block iff each coordinate is in the block's range on its axis. -/
theorem mem_blk_scores (t : Fin cfg0.N) (i : S32x2048x2048.Idx) :
    i ∈ ((cfg0.win 4).blk t).view.set ↔ ∀ a : Fin 3, win0_4.index t a * S1x1024x2048.size a ≤ (i a).val ∧ (i a).val < win0_4.index t a * S1x1024x2048.size a + S1x1024x2048.size a := by
  show i ∈ ((View.whole main_v0_1).slice (win0_4.rect t)).set ↔ _
  rw [View.set_slice_whole, Rect.mem_set_unit]
  exact Iff.rfl

/-- The same for the output array. -/
theorem mem_blk_attend (t : Fin cfg0.N) (i : S32x2048x64.Idx) :
    i ∈ ((cfg0.win 3).blk t).view.set ↔ ∀ a : Fin 3, win0_3.index t a * S1x1024x64.size a ≤ (i a).val ∧ (i a).val < win0_3.index t a * S1x1024x64.size a + S1x1024x64.size a := by
  show i ∈ ((View.whole main_v0_0).slice (win0_3.rect t)).set ↔ _
  rw [View.set_slice_whole, Rect.mem_set_unit]
  exact Iff.rfl

/-- Entry (b, i, j) of the score array is in the block of the point with batch b and row block i / 1024. -/
theorem cover_scores (i : S32x2048x2048.Idx) :
    ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 2048 := (i 2).isLt
  obtain ⟨t, ht⟩ := idx_onto ⟨(i 0).val, hi0⟩ ⟨(i 1).val / 1024, by omega⟩
  have e0 : win0_4.index t (0 : Fin 3) = (i 0).val := congrFun ht 0
  have e1 : win0_4.index t (1 : Fin 3) = (i 1).val / 1024 := congrFun ht 1
  have e2 : win0_4.index t (2 : Fin 3) = 0 := congrFun ht 2
  refine ⟨t, flush0_4 t, ?_⟩
  rw [mem_blk_scores]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 2048 ≤ (i 2).val ∧ (i 2).val < win0_4.index t (2 : Fin 3) * 2048 + 2048; omega

/-- Entry (b, i, e) of the output array likewise. -/
theorem cover_attend (i : S32x2048x64.Idx) :
    ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 1024, by omega⟩
  obtain ⟨q0, q1, q2, k0, k1, k2, v0, v1, v2, o0, o1, o2, s2⟩ := idx_facts t
  have e0 : win0_4.index t (0 : Fin 3) = (i 0).val := congrFun ht 0
  have e1 : win0_4.index t (1 : Fin 3) = (i 1).val / 1024 := congrFun ht 1
  refine ⟨t, flush0_3 t, ?_⟩
  rw [mem_blk_attend]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-! ## The arrays after the run -/

/-- The score array ends holding the scores of the arguments. -/
theorem final_scores (c : Dev nD) :
    (dats m 0 c).arrAt 4 cfg0.N = scores (m ((c : Thread nD τ).loc main_arg0)) (m ((c : Thread nD τ).loc main_arg1)) :=
  (dats m 0 c).arrAt_eq_of_cover 4 (scores (V m c main_arg0) (V m c main_arg1)) (fun t _ => flushed_scores m c t) cover_scores

/-- The output array ends holding the attended output of the arguments. -/
theorem final_attend (c : Dev nD) :
    (dats m 0 c).arrAt 3 cfg0.N = attend (m ((c : Thread nD τ).loc main_arg0)) (m ((c : Thread nD τ).loc main_arg1)) (m ((c : Thread nD τ).loc main_arg2)) :=
  (dats m 0 c).arrAt_eq_of_cover 3 (attend (V m c main_arg0) (V m c main_arg1) (V m c main_arg2)) (fun t _ => flushed_attend m c t) cover_attend

/-- The kernel's run, read: both results at their functions of the arguments, the arguments unchanged. -/
theorem run : θ_run defs (onTc (τ := τ) (main (F := Ideal))) ⟨m, fun _ => 0, ρ⟩ fun r => ∀ c : Dev nD,
      r.2.mem ((c : Thread nD τ).loc main_v0_0) = attend (m ((c : Thread nD τ).loc main_arg0)) (m ((c : Thread nD τ).loc main_arg1)) (m ((c : Thread nD τ).loc main_arg2))
      ∧ r.2.mem ((c : Thread nD τ).loc main_v0_1) = scores (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_attend m c), (h c).2.1.trans (final_scores m c), (h c).2.2⟩)
    (run_blocks m ρ)

end Cert.Attn.Kernel

end
-- ==== Proof.RefValue.lean ====
/-
  The reference's two results, read index by index at the ideal values, are the specification's two functions:
  the quotient of the contraction of q and k by √64 is `Attn.scores`, and the contraction of that array with v over
  the key axis is `Attn.attend`.
-/
import proofs.«157425_j57827439674168_2_alg».proof.Proof.Gen.ReferenceIdeal.Read
import proofs.«157425_j57827439674168_2_alg».proof.Proof.AttnSpec

noncomputable section

open scoped BigOperators

namespace Cert.Attn.Ref

open Cert.ReferenceIdeal Cert.ReferenceIdeal.Gen Cert.ReferenceIdeal.Read
open Idealize.ShloMosaic Idealize.ShloMosaic.ValueIdx Cert.Attn

/-- The first contraction reads q at (b, i, d) … -/
theorem lidx1 (i : S32x2048x2048.Idx) (d : Fin 64) : lidx_main_v1 i d = ix3 (i 0) (i 1) d :=
  funext fun a => by match a with | ⟨0, _⟩ => rfl | ⟨1, _⟩ => rfl | ⟨2, _⟩ => rfl
/-- … and k at (b, j, d). -/
theorem ridx1 (i : S32x2048x2048.Idx) (d : Fin 64) : ridx_main_v1 i d = ix3 (i 0) (i 2) d :=
  funext fun a => by match a with | ⟨0, _⟩ => rfl | ⟨1, _⟩ => rfl | ⟨2, _⟩ => rfl
/-- The second contraction reads the scores at (b, i, j) … -/
theorem lidx4 (i : S32x2048x64.Idx) (j : Fin 2048) : lidx_main_v4 i j = ix3 (i 0) (i 1) j :=
  funext fun a => by match a with | ⟨0, _⟩ => rfl | ⟨1, _⟩ => rfl | ⟨2, _⟩ => rfl
/-- … and v at (b, j, e). -/
theorem ridx4 (i : S32x2048x64.Idx) (j : Fin 2048) : ridx_main_v4 i j = ix3 (i 0) j (i 2) :=
  funext fun a => by match a with | ⟨0, _⟩ => rfl | ⟨1, _⟩ => rfl | ⟨2, _⟩ => rfl

/-- The reference's score array is the specification's: the contraction over d, divided by √64 = 8. -/
theorem scores_eq (q k : (⟨S32x2048x64, .f32⟩ : BufTy).Contents (Elt Ideal)) :
    val_main_v3 (F := Ideal) q k = scores q k := by
  funext i
  rw [val_main_v3_apply, val_main_v1_apply, val_main_v2_apply, val_main_v0_apply, val_main_cst_apply]
  simp only [Ideal.hostDivf_def, Ideal.hostUnary_sqrt_def, Ideal.ofBits_def, lidx1, ridx1]
  rw [div_sqrt_64]
  rfl

/-- The reference's output is the specification's: the scores contracted with v over the key axis. -/
theorem attend_eq (q k v : (⟨S32x2048x64, .f32⟩ : BufTy).Contents (Elt Ideal)) :
    val_main_v4 (F := Ideal) q k v = attend q k v := by
  funext i
  rw [val_main_v4_apply, scores_eq]
  simp only [lidx4, ridx4]
  rfl

end Cert.Attn.Ref

end
-- ==== Proof.lean ====
/-
  Attention scores and output without softmax: the kernel against its jnp reference, over the extended reals.

  Both programs compute, from q, k, v : [32, 2048, 64],
      scores (b, i, j) = (∑ d, q (b, i, d) · k (b, j, d)) / 8        and       out (b, i, e) = ∑ j, scores (b, i, j) · v (b, j, e).
  The kernel scales q by 1/8 before the first contraction and works on 64 row blocks; the reference contracts whole
  arrays and divides by √64. The factor 1/8 leaves the sum over d because a nonnegative real constant distributes
  over any sum of extended reals, so the equality holds at every input and the finiteness precondition is not used.
  The three frames are the generated ones (the reference's is its run with the results dropped); the idealization
  rewrote nothing, so `preserves` is trivial.
-/
import proofs.«157425_j57827439674168_2_alg».proof.Defs
import proofs.«157425_j57827439674168_2_alg».proof.Proof.Gen.Kernel
import proofs.«157425_j57827439674168_2_alg».proof.Proof.Gen.Kernel.Skeleton
import proofs.«157425_j57827439674168_2_alg».proof.Proof.Gen.Kernel.Launch
import proofs.«157425_j57827439674168_2_alg».proof.Proof.Gen.Kernel.Points
import proofs.«157425_j57827439674168_2_alg».proof.Proof.Gen.Kernel.Frame
import proofs.«157425_j57827439674168_2_alg».proof.Proof.Gen.KernelIdeal
import proofs.«157425_j57827439674168_2_alg».proof.Proof.Gen.KernelIdeal.Skeleton
import proofs.«157425_j57827439674168_2_alg».proof.Proof.Gen.KernelIdeal.Launch
import proofs.«157425_j57827439674168_2_alg».proof.Proof.Gen.KernelIdeal.Points
import proofs.«157425_j57827439674168_2_alg».proof.Proof.Gen.KernelIdeal.Frame
import proofs.«157425_j57827439674168_2_alg».proof.Proof.Gen.ReferenceIdeal
import proofs.«157425_j57827439674168_2_alg».proof.Proof.Gen.Pre_finite_inputs
import proofs.«157425_j57827439674168_2_alg».proof.Proof.Gen.KernelIdeal.Value
import proofs.«157425_j57827439674168_2_alg».proof.Proof.Gen.ReferenceIdeal.Run
import proofs.«157425_j57827439674168_2_alg».proof.Proof.Gen.ReferenceIdeal.Read
import proofs.«157425_j57827439674168_2_alg».proof.Proof.KernelValue
import proofs.«157425_j57827439674168_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both runs end with the output at `Attn.attend` and the score array at `Attn.scores` of the (agreeing) arguments. -/
theorem algebraic : Cert.algebraic_KernelIdeal_ReferenceIdeal := by
  intro m ρ m' ρ' _ hagree
  refine ⟨_, _, Cert.Attn.Kernel.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v4_eq, Cert.Attn.Ref.attend_eq, (hagree c).1, (hagree c).2.1, (hagree c).2.2]
  · rw [Cert.ReferenceIdeal.Read.val_main_v3_eq, Cert.Attn.Ref.scores_eq, (hagree c).1, (hagree c).2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
